-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel

variable [Facts]

def fn {F : FTy → Type} [FloatOps F] (main_arg0 : FVec F S16x2048x256 .f32) (main_arg1 : FVec F S16x2048x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  main_v8
-- ==== Kernel.lean ====
abbrev S16x2048x256 : Shape := ⟨3, ![16, 2048, 256]⟩
abbrev S16x2048x2048 : Shape := ⟨3, ![16, 2048, 2048]⟩
abbrev S1x512x256 : Shape := ⟨3, ![1, 512, 256]⟩
abbrev S1x512x512 : Shape := ⟨3, ![1, 512, 512]⟩
abbrev S512x256 : Shape := ⟨2, ![512, 256]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x2048, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .f32⟩
  | .local _ .vmem, ⟨5, _⟩ => ⟨S1x512x512, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  transposes_S512x256_p1_0_S256x512 : S512x256.Transposes [1, 0] S256x512
  reduces_S512x256_S512 : S512x256.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x2048x256.size a
  hwx0_0 : ∀ i : grid0.Coords, EltTy.bits .f32 = 32 ∨ (Rect.block (s := S16x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S16x2048x256.size a
  hwx0_1 : ∀ i : grid0.Coords, EltTy.bits .f32 = 32 ∨ (Rect.block (s := S16x2048x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x2048x2048.size a
  hwx0_2 : ∀ i : grid0.Coords, EltTy.bits .f32 = 32 ∨ (Rect.block (s := S16x2048x2048) S1x512x512.size (cc0_transform_2 i) (hinb0_2 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x2048, .f32⟩
  | .hbm, ⟨3, _⟩ => ⟨S16x2048x256, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S16x2048x256, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048x1, .f32⟩
  | .hbm, ⟨12, _⟩ => ⟨S16x1x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048x2048, .f32⟩
  | .hbm, ⟨22, _⟩ => ⟨S16x2048x2048, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  dot_S16x2048x256_S16x2048x256_S16x2048x2048_2_2_1_1_0_0_wf : DotDims.WF S16x2048x256 S16x2048x256 S16x2048x2048 [2] [2] [1] [1] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf

class Facts : Prop extends Facts₀ where

variable [Facts]
-- ==== Proof.Spec.lean ====
/-
  The function both programs compute, on the extended reals. For arrays `x`, `y` of shape [16, 2048, 256] the
  result at `(b, r, s)` is the cosine similarity of row `r` of `x[b]` and row `s` of `y[b]` with a clamped
  denominator:

      ⟨x[b,r,:], y[b,s,:]⟩ / max (‖x[b,r,:]‖ · ‖y[b,s,:]‖, ε) · 1

  where `⟨u, v⟩ = ∑ₖ uₖ vₖ` over the 256 entries of a row, `‖u‖ = √(∑ₖ uₖ uₖ)`, and `ε` and `1` are the two f32
  literals both programs carry (the same bit patterns on both sides, so they are never evaluated). It depends on
  the two rows only, so it is written as `ratio` of two rows; `cosine` reads the rows off the arrays, and
  `cosine_apply` says that any way of indexing the two rows with the right coordinates gives the same value.
-/
import Idealize.ShloMosaic.PureOps.Ideal
import Idealize.ShloMosaic.Lib.ValueIdx

noncomputable section

namespace Cert.Cosine

open Idealize.ShloMosaic

/-- The shape of each argument array, and of the result. -/
abbrev SIn : Shape := ⟨3, ![16, 2048, 256]⟩
abbrev SOut : Shape := ⟨3, ![16, 2048, 2048]⟩

/-- The inner product of two rows over the clamped product of their Euclidean norms, times the unit scale. -/
def ratio (L R : Fin 256 → EReal) : EReal :=
  Ideal.div (∑ k : Fin 256, L k * R k)
      (max (Ideal.sqrt (∑ k : Fin 256, L k * L k) * Ideal.sqrt (∑ k : Fin 256, R k * R k)) (Ideal.ofBits .f32 0x322BCC77#32))
    * Ideal.ofBits .f32 0x3F800000#32

/-- Entry `k` of the row of `x` that result index `i = (b, r, s)` uses: `(b, r, k)`. -/
abbrev rowX (i : SOut.Idx) (k : Fin 256) : SIn.Idx := fun a => match a with
  | ⟨0, _⟩ => ⟨(i 0).val, (i 0).isLt⟩
  | ⟨1, _⟩ => ⟨(i 1).val, (i 1).isLt⟩
  | ⟨2, _⟩ => ⟨k.val, k.isLt⟩

/-- Entry `k` of the row of `y` that result index `i = (b, r, s)` uses: `(b, s, k)`. -/
abbrev rowY (i : SOut.Idx) (k : Fin 256) : SIn.Idx := fun a => match a with
  | ⟨0, _⟩ => ⟨(i 0).val, (i 0).isLt⟩
  | ⟨1, _⟩ => ⟨(i 2).val, (i 2).isLt⟩
  | ⟨2, _⟩ => ⟨k.val, k.isLt⟩

/-- The whole result array as one function of the two argument arrays. -/
def cosine (x y : SIn.Idx → EReal) : SOut.Idx → EReal :=
  fun i => ratio (fun k => x (rowX i k)) (fun k => y (rowY i k))

/-- The result at `i = (b, r, s)` through ANY indexing of the two rows: if `ix k` has coordinates `(b, r, k)` and
    `iy k` has coordinates `(b, s, k)`, then `cosine x y i` is `ratio` of `x ∘ ix` and `y ∘ iy`. -/
theorem cosine_apply (x y : SIn.Idx → EReal) (i : SOut.Idx) (ix iy : Fin 256 → SIn.Idx)
    (hx : ∀ k, (ix k 0).val = (i 0).val ∧ (ix k 1).val = (i 1).val ∧ (ix k 2).val = k.val)
    (hy : ∀ k, (iy k 0).val = (i 0).val ∧ (iy k 1).val = (i 2).val ∧ (iy k 2).val = k.val) :
    cosine x y i = ratio (fun k => x (ix k)) (fun k => y (iy k)) := by
  have ex : ∀ k, rowX i k = ix k := fun k => funext fun a => Fin.ext (by
    match a with
    | ⟨0, _⟩ => exact (hx k).1.symm
    | ⟨1, _⟩ => exact (hx k).2.1.symm
    | ⟨2, _⟩ => exact (hx k).2.2.symm)
  have ey : ∀ k, rowY i k = iy k := fun k => funext fun a => Fin.ext (by
    match a with
    | ⟨0, _⟩ => exact (hy k).1.symm
    | ⟨1, _⟩ => exact (hy k).2.1.symm
    | ⟨2, _⟩ => exact (hy k).2.2.symm)
  unfold cosine
  simp only [ex, ey]

end Cert.Cosine

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Payload.lean ====
/-
  The kernel body's arithmetic, read at an index. At one grid point the body holds a block `x0` of `x`
  (512 rows of 256 entries, under a unit batch axis) and a block `x1` of `y` and stores, at `(p, q)` of its
  512 × 512 output block,

      (∑ₖ x0[p,k] · x1[q,k]) / max (√(∑ₖ x0[p,k]²) · √(∑ₖ x1[q,k]²), ε) · 1

  that is `ratio` of row `p` of `x0` and row `q` of `x1`. The matrix product runs over rows of `x0` against
  columns of the transposed `x1` and accumulates into zero, so its entry is the inner product of two rows (the
  conversion to bf16 on the way in is the identity on the extended reals); the row sums of squares are lane
  reductions; the column `[512, 1]` of `x0`'s norms and the row `[1, 512]` of `x1`'s norms are repeated to
  512 × 512, which only renames indices.
-/
import proofs.«107764_j22780506538335_1_alg».proof.Proof.Gen.KernelIdeal.Skeleton
import proofs.«107764_j22780506538335_1_alg».proof.Proof.Spec
import proofs.«107764_j22780506538335_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Cosine Cert.Lib.Column

/-- A lane sum of a 512 × 256 vector at row `r` is the sum of that row's 256 entries. -/
theorem laneSum_apply (src : FVec Ideal S512x256 .f32) (hred : S512x256.Reduces [1] S512) (hφ : FKind.Formats .f32)
    (hacc : (0x00000000#32 : BitVec 32) = FKind.add.neutral .f32 hφ) (r : Fin 512) :
    multiReduction .add [1] S512 src 0x00000000#32 hred hφ hacc (ix1 r) = ∑ k : Fin 256, src (ix2 r k) := by
  refine (Ideal.multiReduction_add_single src 0x00000000#32 hred hφ hacc (ix1 r)).trans ?_
  exact Finset.sum_congr rfl fun k _ => congrArg src (funext fun a => Fin.ext (by
    match a with
    | ⟨0, _⟩ => rfl
    | ⟨1, _⟩ => rfl))

/-- The norm of row `p`, kept as a column and repeated along the second axis: at `(p, q)` it is `√(∑ₖ v[p,k]²)`. -/
theorem normCol_apply (v : FVec Ideal S512x256 .f32) (hred : S512x256.Reduces [1] S512) (hφ : FKind.Formats .f32)
    (hacc : (0x00000000#32 : BitVec 32) = FKind.add.neutral .f32 hφ) (hsc : S512.ShapeCasts S512x1)
    (hbc : S512x1.Broadcasts S512x512) (p q : Fin 512) :
    broadcastTo S512x512 (sqrt (shapeCast S512x1 (multiReduction .add [1] S512 (mulf v v) 0x00000000#32 hred hφ hacc) hsc)) hbc (ix2 p q)
      = Ideal.sqrt (∑ k : Fin 256, v (ix2 p k) * v (ix2 p k)) := by
  refine (broadcastTo_a1_ab_apply _ hbc p q).trans ?_
  show Ideal.sqrt (shapeCast S512x1 (multiReduction .add [1] S512 (mulf v v) 0x00000000#32 hred hφ hacc) hsc (ix2 p (0 : Fin 1))) = _
  refine congrArg Ideal.sqrt ?_
  refine (shapeCast_a_a1_apply _ hsc p (0 : Fin 1)).trans ?_
  exact laneSum_apply (mulf v v) hred hφ hacc p

/-- The norm of row `q`, laid out as a row and repeated along the first axis: at `(p, q)` it is `√(∑ₖ v[q,k]²)`. -/
theorem normRow_apply (v : FVec Ideal S512x256 .f32) (hred : S512x256.Reduces [1] S512) (hφ : FKind.Formats .f32)
    (hacc : (0x00000000#32 : BitVec 32) = FKind.add.neutral .f32 hφ) (hsc : S512.ShapeCasts S1x512)
    (hbc : S1x512.Broadcasts S512x512) (p q : Fin 512) :
    broadcastTo S512x512 (shapeCast S1x512 (sqrt (multiReduction .add [1] S512 (mulf v v) 0x00000000#32 hred hφ hacc)) hsc) hbc (ix2 p q)
      = Ideal.sqrt (∑ k : Fin 256, v (ix2 q k) * v (ix2 q k)) := by
  refine (broadcastTo_1b_ab_apply _ hbc p q).trans ?_
  refine (shapeCast_a_1a_apply _ hsc (0 : Fin 1) q).trans ?_
  show Ideal.sqrt (multiReduction .add [1] S512 (mulf v v) 0x00000000#32 hred hφ hacc (ix1 q)) = _
  exact congrArg Ideal.sqrt (laneSum_apply (mulf v v) hred hφ hacc q)

/-- The left operand's row coordinate at output index `j` is `j`'s first coordinate. -/
theorem lhs_row (j : S512x512.Idx) (κ : dot_S512x256_S256x512_S512x512_1_0_0_1_n_n.contr.Idx) :
    (dot_S512x256_S256x512_S512x512_1_0_0_1_n_n.lhsIdx j κ 0).val = (j 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl

/-- Its column coordinate is the contraction position. -/
theorem lhs_col (j : S512x512.Idx) (κ : dot_S512x256_S256x512_S512x512_1_0_0_1_n_n.contr.Idx) :
    (dot_S512x256_S256x512_S512x512_1_0_0_1_n_n.lhsIdx j κ 1).val = (κ ⟨0, by decide⟩).val :=
  dot_S512x256_S256x512_S512x512_1_0_0_1_n_n.lhsIdx_val_of_single rfl j κ

/-- The right operand's row coordinate is the contraction position. -/
theorem rhs_row (j : S512x512.Idx) (κ : dot_S512x256_S256x512_S512x512_1_0_0_1_n_n.contr.Idx) :
    (dot_S512x256_S256x512_S512x512_1_0_0_1_n_n.rhsIdx j κ 0).val = (κ ⟨0, by decide⟩).val :=
  dot_S512x256_S256x512_S512x512_1_0_0_1_n_n.rhsIdx_val_of_single rfl j κ

/-- Its column coordinate at output index `j` is `j`'s second coordinate. -/
theorem rhs_col (j : S512x512.Idx) (κ : dot_S512x256_S256x512_S512x512_1_0_0_1_n_n.contr.Idx) :
    (dot_S512x256_S256x512_S512x512_1_0_0_1_n_n.rhsIdx j κ 1).val = (j 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The matrix product of `a` with the transpose of `b` into a zero accumulator: at `(p, q)` the inner product of
    row `p` of `a` and row `q` of `b`. The contraction index is re-indexed by its one coordinate. -/
theorem dot_apply (a b : FVec Ideal S512x256 .f32) (hlt : FTy.bits .bf16 < FTy.bits .f32)
    (ht : S512x256.Transposes [1, 0] S256x512) (p q : Fin 512) :
    matmul (F := Ideal) dot_S512x256_S256x512_S512x512_1_0_0_1_n_n none (truncf .bf16 a hlt)
        (transpose S256x512 [1, 0] (truncf .bf16 b hlt) ht) (constant S512x512 .f32 0x00000000#32) (ix2 p q)
      = ∑ k : Fin 256, a (ix2 p k) * b (ix2 q k) := by
  refine (Ideal.matmul_constant_zero_apply dot_S512x256_S256x512_S512x512_1_0_0_1_n_n none _ _ (ix2 p q)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q)
      ((contrEquiv1 dot_S512x256_S256x512_S512x512_1_0_0_1_n_n 256 rfl rfl).symm k) = ix2 p k :=
    funext fun ax => Fin.ext (by
      match ax with
      | ⟨0, _⟩ => exact lhs_row _ _
      | ⟨1, _⟩ => exact (lhs_col _ _).trans hk)
  have er : dot_S512x256_S256x512_S512x512_1_0_0_1_n_n.rhsIdx (ix2 p q)
      ((contrEquiv1 dot_S512x256_S256x512_S512x512_1_0_0_1_n_n 256 rfl rfl).symm k) = ix2 k q :=
    funext fun ax => Fin.ext (by
      match ax with
      | ⟨0, _⟩ => exact (rhs_row _ _).trans hk
      | ⟨1, _⟩ => exact rhs_col _ _)
  rw [el, er]
  exact congrArg (a (ix2 p k) * ·) (transpose_ix2_apply (truncf .bf16 b hlt) ht k q)

/-- THE BODY'S STORED VALUE AT AN INDEX: `ratio` of row `p` of the first block and row `q` of the second. -/
theorem pay_apply (x0 x1 : Vec Ideal S1x512x256 .f32) (u : Fin 1) (p q : Fin 512) :
    k0_pay1 (F := Ideal) x0 x1 (ix3 u p q)
      = ratio (fun k => x0 (ix3 (0 : Fin 1) p k)) (fun k => x1 (ix3 (0 : Fin 1) q k)) := by
  unfold k0_pay1
  dsimp only
  refine (shapeCast_ab_1ab_apply _ _ u p q).trans ?_
  unfold ratio
  refine congrArg₂ (fun d n => Ideal.div d (max n (Ideal.ofBits .f32 0x322BCC77#32)) * Ideal.ofBits .f32 0x3F800000#32) ?_ ?_
  · refine (dot_apply _ _ _ _ p q).trans ?_
    exact Finset.sum_congr rfl fun k _ => congrArg₂ (· * ·)
      (shapeCast_1ab_ab_apply x0 _ p k) (shapeCast_1ab_ab_apply x1 _ q k)
  · refine congrArg₂ (· * ·) ?_ ?_
    · refine (normCol_apply _ _ _ _ _ _ p q).trans ?_
      exact congrArg Ideal.sqrt (Finset.sum_congr rfl fun k _ => congrArg₂ (· * ·)
        (shapeCast_1ab_ab_apply x0 _ p k) (shapeCast_1ab_ab_apply x0 _ p k))
    · refine (normRow_apply _ _ _ _ _ _ p q).trans ?_
      exact congrArg Ideal.sqrt (Finset.sum_congr rfl fun k _ => congrArg₂ (· * ·)
        (shapeCast_1ab_ab_apply x1 _ q k) (shapeCast_1ab_ab_apply x1 _ q k))

/-- The stored value against the whole-array function: when the two blocks' rows `p` and `q` are rows `(b, r)` of an
    array `X` and `(b, s)` of an array `Y` (`ex`, `ey` index them, `h0`, `h1` say so, `hx`, `hy` give the coordinates),
    the value stored at `(p, q)` is `cosine X Y` at `i = (b, r, s)`. -/
theorem point_eq (X Y : SIn.Idx → EReal) (x0 x1 : Vec Ideal S1x512x256 .f32) (i : SOut.Idx) (u : Fin 1) (p q : Fin 512)
    (ex ey : Fin 256 → SIn.Idx)
    (h0 : ∀ k, x0 (ix3 (0 : Fin 1) p k) = X (ex k)) (h1 : ∀ k, x1 (ix3 (0 : Fin 1) q k) = Y (ey k))
    (hx : ∀ k, (ex k 0).val = (i 0).val ∧ (ex k 1).val = (i 1).val ∧ (ex k 2).val = k.val)
    (hy : ∀ k, (ey k 0).val = (i 0).val ∧ (ey k 1).val = (i 2).val ∧ (ey k 2).val = k.val) :
    k0_pay1 (F := Ideal) x0 x1 (ix3 u p q) = cosine X Y i := by
  rw [pay_apply, cosine_apply X Y i ex ey hx hy]
  simp only [h0, h1]

end Cert.KernelIdeal.Payload

end
-- ==== Proof.Blocks.lean ====
/-
  From blocks to the array. The grid has 16 × 4 × 4 points; point `(b, ti, tj)` reads rows `512·ti … 512·ti + 511`
  of `x[b]` and rows `512·tj … 512·tj + 511` of `y[b]` whole (all 256 entries), and writes back the
  512 × 512 tile of the result at rows `512·ti …`, columns `512·tj …` of batch `b`. So the entry the point stores
  at `(p, q)` of its tile is `cosine x y` at `(b, 512·ti + p, 512·tj + q)`: each point writes its tile of ONE
  whole-array function. The tiles cover the result (the tile of `(b, r, s)` is the one at `(b, r / 512, s / 512)`),
  so after the run the result array is `cosine` of the argument arrays.
-/
import proofs.«107764_j22780506538335_1_alg».proof.Proof.Gen.KernelIdeal.Value
import proofs.«107764_j22780506538335_1_alg».proof.Proof.Payload
import Idealize.ShloMosaic.Lib.Pipeline.Value
import Idealize.ShloMosaic.Lib.Tactic

noncomputable section

namespace Cert.KernelIdeal.Blocks

open Cert.KernelIdeal Cert.KernelIdeal.Gen Cert.KernelIdeal.Payload Cert.Cosine
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The three index maps at one point: both inputs follow the output's batch coordinate; `x`'s row block is the
    output's row block, `y`'s row block is the output's COLUMN block; neither input is tiled along the row entries. -/
theorem idx_rel : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0 :=
  (by decide +kernel : ∀ t : Fin grid0.N, _)

/-- Every tile position `(b, ti, tj)` is some point's. -/
theorem idx_onto : ∀ (q0 : Fin 16) (q1 : Fin 4) (q2 : Fin 4), ∃ t : Fin cfg0.N, win0_2.index t = ![q0.val, q1.val, q2.val] :=
  (by decide +kernel : ∀ (q0 : Fin 16) (q1 : Fin 4) (q2 : Fin 4), ∃ t : Fin grid0.N, win0_2.index t = ![q0.val, q1.val, q2.val])

/-- WHAT POINT `t` WRITES BACK is its tile of `cosine` of the argument arrays. -/
theorem flushed_eq (c : Dev nD) (t : Fin cfg0.N) :
    (dats m 0 c).flushed 2 t = ((cfg0.win 2).blk t).view.read (Elt Ideal) (cosine (V m c main_arg0) (V m c main_arg1)) := by
  show (cfg0.win 2).cut (grid0.coords t) ((dats m 0 c).after 2 t) = _
  rw [after0_2]
  unfold out0_2
  rw [View.canon_unit_zero hz]
  simp only [View.ld_unit_zero (S := S1x512x256) hz]
  obtain ⟨e00, e01, e02, e10, e11, e12⟩ := idx_rel t
  funext j
  obtain ⟨u, p, q, rfl⟩ : ∃ (u : Fin 1) (p q : Fin 512), j = ix3 u p q := ⟨j 0, j 1, j 2, eq_ix3 j⟩
  show k0_pay1 (iblk m c 0 t) (iblk m c 1 t) (ix3 u p q)
    = cosine (V m c main_arg0) (V m c main_arg1) (((cfg0.win 2).blk t).view.emb (ix3 u p q))
  have hu : u.val = 0 := by omega
  refine point_eq _ _ _ _ _ u p q
    (fun k => ((cfg0.win 0).blk t).view.emb (ix3 (0 : Fin 1) p k))
    (fun k => ((cfg0.win 1).blk t).view.emb (ix3 (0 : Fin 1) q k))
    (fun k => rfl) (fun k => rfl) (fun k => ⟨?_, ?_, ?_⟩) (fun k => ⟨?_, ?_, ?_⟩)
  · show win0_0.index t (0 : Fin 3) * 1 + 1 * (0 : Nat) = win0_2.index t (0 : Fin 3) * 1 + 1 * u.val
    omega
  · show win0_0.index t (1 : Fin 3) * 512 + 1 * p.val = win0_2.index t (1 : Fin 3) * 512 + 1 * p.val
    omega
  · show win0_0.index t (2 : Fin 3) * 256 + 1 * k.val = k.val
    omega
  · show win0_1.index t (0 : Fin 3) * 1 + 1 * (0 : Nat) = win0_2.index t (0 : Fin 3) * 1 + 1 * u.val
    omega
  · show win0_1.index t (1 : Fin 3) * 512 + 1 * q.val = win0_2.index t (2 : Fin 3) * 512 + 1 * q.val
    omega
  · show win0_1.index t (2 : Fin 3) * 256 + 1 * k.val = k.val
    omega

/-- An index of the result is in point `t`'s tile iff each coordinate is in the tile's range on its axis. -/
theorem mem_blk (t : Fin cfg0.N) (i : S16x2048x2048.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v0).slice (win0_2.rect t)).set ↔ _
  rw [View.set_slice_whole, Rect.mem_set_unit]
  exact Iff.rfl

/-- Every index of the result is in some point's tile: the one at `(b, r / 512, s / 512)`. -/
theorem covered (i : S16x2048x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩ ⟨(i 2).val / 512, by omega⟩
  have q0 : win0_2.index t (0 : Fin 3) = (i 0).val := congrFun ht 0
  have q1 : win0_2.index t (1 : Fin 3) = (i 1).val / 512 := congrFun ht 1
  have q2 : win0_2.index t (2 : Fin 3) = (i 2).val / 512 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 512 ≤ (i 2).val ∧ (i 2).val < win0_2.index t (2 : Fin 3) * 512 + 512
    omega

/-- THE RESULT ARRAY after the run is `cosine` of the argument arrays. -/
theorem final (c : Dev nD) : (dats m 0 c).arrAt 2 cfg0.N
    = cosine (m ((c : Thread nD τ).loc main_arg0)) (m ((c : Thread nD τ).loc main_arg1)) :=
  (dats m 0 c).arrAt_eq_of_cover 2 (cosine (V m c main_arg0) (V m c main_arg1)) (fun t _ => flushed_eq m c t) covered

/-- The kernel's run, read: the result array at `cosine` of the arguments, the arguments unchanged. -/
theorem run : θ_run defs (onTc (τ := τ) (main (F := Ideal))) ⟨m, fun _ => 0, ρ⟩ fun r => ∀ c : Dev nD,
      r.2.mem ((c : Thread nD τ).loc main_v0) = cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Blocks

end
-- ==== Proof.RefSide.lean ====
/-
  The reference computes `cosine`. Its program is a batched product `⟨x[b,r,:], y[b,s,:]⟩`, two row norms
  `√(0 + ∑ₖ x[b,r,k]²)` and `√(0 + ∑ₖ y[b,s,k]²)` laid out as a column and as a row and repeated to the result's
  shape, their product clamped below by `ε`, the quotient, and the product with `1`. Read at a result index
  `i = (b, r, s)`, every layout step only renames the index, so the value is `ratio` of the two rows; the one
  arithmetic fact used is that the sum's initial value, the zero pattern, is the extended real `0`.
-/
import proofs.«107764_j22780506538335_1_alg».proof.Proof.Gen.ReferenceIdeal.Read
import proofs.«107764_j22780506538335_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Cert.Cosine

/-- The reference's last stage, as a function of the two argument arrays, is `cosine`. -/
theorem val_eq_cosine (x y : (⟨S16x2048x256, .f32⟩ : BufTy).Contents (Elt Ideal)) :
    val_main_v12 (F := Ideal) x y = cosine x y := by
  funext i
  rw [val_main_v12_apply, val_main_v10_apply, val_main_v0_apply, val_main_v9_apply, val_main_v7_apply,
    val_main_v5_apply, val_main_v3_apply, val_main_v1_apply, val_main_call0_v1_apply,
    val_main_v6_apply, val_main_v4_apply, val_main_v2_apply, val_main_call1_v1_apply,
    val_main_v8_apply, val_main_v11_apply, val_main_cst_apply, val_main_cst_0_apply,
    val_main_call0_cst_apply, val_main_call1_cst_apply]
  simp only [val_main_call0_v0_apply, val_main_call1_v0_apply, Ideal.mulf_def, Ideal.hostDivf_def, Ideal.maximumf_def,
    Ideal.hostUnary_sqrt_def, Ideal.ofBits_def, Ideal.ofBits_zero_f32, zero_add]
  rw [cosine_apply x y i (lidx_main_v0 i) (ridx_main_v0 i) (fun k => ⟨rfl, rfl, rfl⟩) (fun k => ⟨rfl, rfl, rfl⟩)]
  have e0 : ∀ k, idx_main_call0_v1 (idx_main_v3 (idx_main_v5 i)) k = lidx_main_v0 i k := fun k =>
    funext fun a => Fin.ext (by match a with | ⟨0, _⟩ => rfl | ⟨1, _⟩ => rfl | ⟨2, _⟩ => rfl)
  have e1 : ∀ k, idx_main_call1_v1 (idx_main_v4 (idx_main_v6 i)) k = ridx_main_v0 i k := fun k =>
    funext fun a => Fin.ext (by match a with | ⟨0, _⟩ => rfl | ⟨1, _⟩ => rfl | ⟨2, _⟩ => rfl)
  simp only [e0, e1]
  rfl

end Cert.ReferenceIdeal.RefValue

end
-- ==== Proof.lean ====
/-
  The certificate's claims for the cosine-similarity kernel against its jnp reference.

  Both programs compute, at result index `(b, r, s)`,
      ⟨x[b,r,:], y[b,s,:]⟩ / max (‖x[b,r,:]‖ · ‖y[b,s,:]‖, ε) · 1
  (`Cert.Cosine.cosine`, Proof/Spec.lean). On the extended reals the kernel's matrix product of one 512 × 256 block
  with the transpose of another, accumulated into zero, is the sum of products the reference's batched product is;
  the kernel's lane sums of squares are the sums the reference's row reductions add to their initial zero; the square
  root, the maximum, the quotient and the product are the same functions on both sides; and the two literals are the
  same bit patterns on both sides. Nothing is rearranged, so no finiteness of the inputs is needed and the
  precondition is not opened.

  * the kernel's side: Proof/Payload.lean (the body's stored value at an index) and Proof/Blocks.lean (each grid
    point writes its tile of `cosine`, the tiles cover the result) over the generated frame run;
  * the reference's side: Proof/RefSide.lean over the generated run of its host operations;
  * the frames: the generated frame certificates of the two kernel programs, and the reference's run with its
    result dropped;
  * the idealization rewrote no operation, so there is nothing to preserve.
-/
import proofs.«107764_j22780506538335_1_alg».proof.Defs
import proofs.«107764_j22780506538335_1_alg».proof.Proof.Gen.Kernel
import proofs.«107764_j22780506538335_1_alg».proof.Proof.Gen.Kernel.Skeleton
import proofs.«107764_j22780506538335_1_alg».proof.Proof.Gen.Kernel.Launch
import proofs.«107764_j22780506538335_1_alg».proof.Proof.Gen.Kernel.Points
import proofs.«107764_j22780506538335_1_alg».proof.Proof.Gen.Kernel.Frame
import proofs.«107764_j22780506538335_1_alg».proof.Proof.Gen.KernelIdeal
import proofs.«107764_j22780506538335_1_alg».proof.Proof.Gen.KernelIdeal.Skeleton
import proofs.«107764_j22780506538335_1_alg».proof.Proof.Gen.KernelIdeal.Launch
import proofs.«107764_j22780506538335_1_alg».proof.Proof.Gen.KernelIdeal.Points
import proofs.«107764_j22780506538335_1_alg».proof.Proof.Gen.KernelIdeal.Frame
import proofs.«107764_j22780506538335_1_alg».proof.Proof.Gen.ReferenceIdeal
import proofs.«107764_j22780506538335_1_alg».proof.Proof.Gen.Pre_finite_inputs
import proofs.«107764_j22780506538335_1_alg».proof.Proof.Gen.KernelIdeal.Value
import proofs.«107764_j22780506538335_1_alg».proof.Proof.Gen.ReferenceIdeal.Run
import proofs.«107764_j22780506538335_1_alg».proof.Proof.Gen.ReferenceIdeal.Read
import proofs.«107764_j22780506538335_1_alg».proof.Proof.Blocks
import proofs.«107764_j22780506538335_1_alg».proof.Proof.RefSide
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on `x` and `y`, the kernel's result array ends at `cosine x y` (Proof/Blocks.lean) and
    the reference's at its last stage of `x` and `y`, which is `cosine x y` (Proof/RefSide.lean). -/
theorem algebraic : Cert.algebraic_KernelIdeal_ReferenceIdeal := by
  intro m ρ m' ρ' _ hagree
  refine ⟨fun c => Cert.Cosine.cosine (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.val_eq_cosine, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
